-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576 : Shape := ⟨1, ![1048576]⟩
abbrev S16777216 : Shape := ⟨1, ![16777216]⟩
abbrev S2x16777216 : Shape := ⟨2, ![2, 16777216]⟩
abbrev S_ : Shape := ⟨0, ![]⟩

class Facts : Prop where
  bcast_S_S1048576 : S_.BroadcastsInDim S1048576 (![] : Fin 0 → Fin S1048576.rank)
  reducesTo_S1048576_S_d0 : S1048576.ReducesTo [0] S_
  h_S_ : 0 < S_.numel
  bcast_S_S16777216 : S_.BroadcastsInDim S16777216 (![] : Fin 0 → Fin S16777216.rank)
  reducesTo_S16777216_S_d0 : S16777216.ReducesTo [0] S_

variable [Facts]

def fn_part1 {F : FTy → Type} [FloatOps F] (main_arg4 : FVec F S16777216 .f32) (main_v13 : IVec S_ 1) (main_v16 : IVec S16777216 1) : IVec S_ 1 :=
  let main_c_5 : IVec S_ 1 := constantI S_ 1 1#1
  let main_v17 : IVec S_ 1 := (fun x v => Host.reduce IntOp.andi x v reducesTo_S16777216_S_d0 h_S_) main_v16 main_c_5
  let main_v18 : IVec S_ 1 := andi main_v13 main_v17
  let main_v19 : FVec F S16777216 .f32 := Host.absf main_arg4
  let main_cst_6 : FVec F S_ .f32 := constant S_ .f32 0x7F800000#32
  let main_v20 : FVec F S16777216 .f32 := broadcastInDim S16777216 ![] bcast_S_S16777216 main_cst_6
  let main_v21 : IVec S16777216 1 := cmpf .olt main_v19 main_v20
  let main_c_7 : IVec S_ 1 := constantI S_ 1 1#1
  let main_v22 : IVec S_ 1 := (fun x v => Host.reduce IntOp.andi x v reducesTo_S16777216_S_d0 h_S_) main_v21 main_c_7
  let main_v23 : IVec S_ 1 := andi main_v18 main_v22
  main_v23

def fn {F : FTy → Type} [FloatOps F] (main_arg0 : FVec F S1048576 .f32) (main_arg1 : FVec F S1048576 .f32) (main_arg2 : FVec F S16777216 .f32) (main_arg3 : FVec F S16777216 .f32) (main_arg4 : FVec F S16777216 .f32) (main_arg5 : IVec S2x16777216 32) (main_arg6 : IVec S1048576 32) : IVec S_ 1 :=
  let main_v0 : FVec F S1048576 .f32 := Host.absf main_arg0
  let main_cst : FVec F S_ .f32 := constant S_ .f32 0x7F800000#32
  let main_v1 : FVec F S1048576 .f32 := broadcastInDim S1048576 ![] bcast_S_S1048576 main_cst
  let main_v2 : IVec S1048576 1 := cmpf .olt main_v0 main_v1
  let main_c : IVec S_ 1 := constantI S_ 1 1#1
  let main_v3 : IVec S_ 1 := (fun x v => Host.reduce IntOp.andi x v reducesTo_S1048576_S_d0 h_S_) main_v2 main_c
  let main_v4 : FVec F S1048576 .f32 := Host.absf main_arg1
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  let main_v14 : FVec F S16777216 .f32 := Host.absf main_arg3
  let main_cst_4 : FVec F S_ .f32 := constant S_ .f32 0x7F800000#32
  let main_v15 : FVec F S16777216 .f32 := broadcastInDim S16777216 ![] bcast_S_S16777216 main_cst_4
  let main_v16 : IVec S16777216 1 := cmpf .olt main_v14 main_v15
  fn_part1 (F := F) main_arg4 main_v13 main_v16
-- ==== Kernel.lean ====
abbrev S1048576 : Shape := ⟨1, ![1048576]⟩
abbrev S16777216 : Shape := ⟨1, ![16777216]⟩
abbrev S2x16777216 : Shape := ⟨2, ![2, 16777216]⟩
abbrev S1x16777216 : Shape := ⟨2, ![1, 16777216]⟩
abbrev S_ : Shape := ⟨0, ![]⟩
abbrev S16777216x1 : Shape := ⟨2, ![16777216, 1]⟩
abbrev S131072x128 : Shape := ⟨2, ![131072, 128]⟩
abbrev S8192x128 : Shape := ⟨2, ![8192, 128]⟩
abbrev S64 : Shape := ⟨1, ![64]⟩
abbrev S1048576x1 : Shape := ⟨2, ![1048576, 1]⟩

abbrev nBuf : Space → Nat
  | .hbm => 72
  | .vmem => 8
  | .smem => 0
  | _ => 0

abbrev bufTy : (tb : Table) → Fin (tcTables nBuf tb) → BufTy
  | .hbm, ⟨0, _⟩ => ⟨S1048576, .f32⟩
  | .hbm, ⟨1, _⟩ => ⟨S1048576, .f32⟩
  | .hbm, ⟨2, _⟩ => ⟨S16777216, .f32⟩
  | .hbm, ⟨3, _⟩ => ⟨S16777216, .f32⟩
  | .hbm, ⟨4, _⟩ => ⟨S16777216, .f32⟩
  | .hbm, ⟨5, _⟩ => ⟨S2x16777216, .i32⟩
  | .hbm, ⟨6, _⟩ => ⟨S1048576, .i32⟩
  | .hbm, ⟨7, _⟩ => ⟨S1x16777216, .i32⟩
  | .hbm, ⟨8, _⟩ => ⟨S16777216, .i32⟩
  | .hbm, ⟨9, _⟩ => ⟨S1x16777216, .i32⟩
  | .hbm, ⟨10, _⟩ => ⟨S16777216, .i32⟩
  | .hbm, ⟨11, _⟩ => ⟨S_, .i32⟩
  | .hbm, ⟨12, _⟩ => ⟨S16777216, .i32⟩
  | .hbm, ⟨13, _⟩ => ⟨S16777216, .i1⟩
  | .hbm, ⟨14, _⟩ => ⟨S_, .i32⟩
  | .hbm, ⟨15, _⟩ => ⟨S16777216, .i32⟩
  | .hbm, ⟨16, _⟩ => ⟨S16777216, .i32⟩
  | .hbm, ⟨17, _⟩ => ⟨S16777216, .i32⟩
  | .hbm, ⟨18, _⟩ => ⟨S16777216x1, .i32⟩
  | .hbm, ⟨19, _⟩ => ⟨S16777216, .f32⟩
  | .hbm, ⟨20, _⟩ => ⟨S131072x128, .f32⟩
  | .hbm, ⟨21, _⟩ => ⟨S131072x128, .f32⟩
  | .hbm, ⟨22, _⟩ => ⟨S131072x128, .f32⟩
  | .hbm, ⟨23, _⟩ => ⟨S131072x128, .f32⟩
  | .hbm, ⟨24, _⟩ => ⟨S16777216, .f32⟩
  | .hbm, ⟨25, _⟩ => ⟨S_, .f32⟩
  | .hbm, ⟨26, _⟩ => ⟨S1048576, .f32⟩
  | .hbm, ⟨27, _⟩ => ⟨S16777216x1, .i32⟩
  | .hbm, ⟨28, _⟩ => ⟨S1048576, .f32⟩
  | .hbm, ⟨29, _⟩ => ⟨S1048576, .f32⟩
  | .hbm, ⟨30, _⟩ => ⟨S_, .f32⟩
  | .hbm, ⟨31, _⟩ => ⟨S64, .f32⟩
  | .hbm, ⟨32, _⟩ => ⟨S1048576x1, .i32⟩
  | .hbm, ⟨33, _⟩ => ⟨S64, .f32⟩
  | .hbm, ⟨34, _⟩ => ⟨S1048576, .f32⟩
  | .hbm, ⟨35, _⟩ => ⟨S_, .f32⟩
  | .hbm, ⟨36, _⟩ => ⟨S64, .f32⟩
  | .hbm, ⟨37, _⟩ => ⟨S1048576x1, .i32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S_, .i32⟩
  | .hbm, ⟨44, _⟩ => ⟨S1048576, .i32⟩
  | .hbm, ⟨45, _⟩ => ⟨S1048576, .i1⟩
  | .hbm, ⟨46, _⟩ => ⟨S_, .i32⟩
  | .hbm, ⟨47, _⟩ => ⟨S1048576, .i32⟩
  | .hbm, ⟨48, _⟩ => ⟨S1048576, .i32⟩
  | .hbm, ⟨49, _⟩ => ⟨S1048576, .i32⟩
  | .hbm, ⟨50, _⟩ => ⟨S1048576x1, .i32⟩
  | .hbm, ⟨51, _⟩ => ⟨S1048576, .f32⟩
  | .hbm, ⟨52, _⟩ => ⟨S1048576, .f32⟩
  | .hbm, ⟨53, _⟩ => ⟨S1048576, .f32⟩
  | .hbm, ⟨54, _⟩ => ⟨S1048576, .f32⟩
  | .hbm, ⟨55, _⟩ => ⟨S_, .f32⟩
  | .hbm, ⟨56, _⟩ => ⟨S64, .f32⟩
  | .hbm, ⟨57, _⟩ => ⟨S1048576x1, .i32⟩
  | .hbm, ⟨58, _⟩ => ⟨S64, .f32⟩
  | .hbm, ⟨59, _⟩ => ⟨S1048576, .f32⟩
  | .hbm, ⟨60, _⟩ => ⟨S_, .f32⟩
  | .hbm, ⟨61, _⟩ => ⟨S64, .f32⟩
  | .hbm, ⟨62, _⟩ => ⟨S1048576x1, .i32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | _, _ => ⟨S1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x16777216_S1x16777216_0_0 : S2x16777216.Slices ![0, 0] S1x16777216
  shapeCasts_S1x16777216_S16777216 : S1x16777216.ShapeCasts S16777216
  slices_S2x16777216_S1x16777216_1_0 : S2x16777216.Slices ![1, 0] S1x16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S131072x128 : S16777216.ShapeCasts S131072x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S131072x128_S16777216 : S131072x128.ShapeCasts S16777216
  bcast_S_S1048576 : S_.BroadcastsInDim S1048576 (![] : Fin 0 → Fin S1048576.rank)
  bcast_S_S64 : S_.BroadcastsInDim S64 (![] : Fin 0 → Fin S64.rank)
  bcast_S1048576_S1048576x1_0 : S1048576.BroadcastsInDim S1048576x1 (![0] : Fin 1 → Fin S1048576x1.rank)
  reducesTo_S64_S_d0 : S64.ReducesTo [0] S_
  h_S_ : 0 < S_.numel
  gather_S1048576_S16777216x1_S16777216_n_0_n_n_0_1_1_wf : GatherDims.WF S1048576 S16777216x1 S16777216 [] [0] [] [0] [] 1 ![1]
  scatter_S1048576_S16777216x1_S16777216_n_0_0_1_wf : ScatterDims.WF S1048576 S16777216x1 S16777216 [] [0] [0] 1
  scatter_S64_S1048576x1_S1048576_n_0_0_1_wf : ScatterDims.WF S64 S1048576x1 S1048576 [] [0] [0] 1
  gather_S64_S1048576x1_S1048576_n_0_n_n_0_1_1_wf : GatherDims.WF S64 S1048576x1 S1048576 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S131072x128.size a
  hwx0_2 : ∀ i : grid0.Coords, EltTy.bits .f32 = 32 ∨ (Rect.block (s := S131072x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S131072x128.size a
  hwx0_3 : ∀ i : grid0.Coords, EltTy.bits .f32 = 32 ∨ (Rect.block (s := S131072x128) S8192x128.size (cc0_transform_3 i) (hinb0_3 i)).WholeWords (EltTy.packing .f32)

variable [Facts₀]

def gather_S1048576_S16777216x1_S16777216_n_0_n_n_0_1_1 : GatherDims S1048576 S16777216x1 S16777216 where
  offsetDims := []
  collapsedSliceDims := [0]
  operandBatchingDims := []
  startIndicesBatchingDims := []
  startIndexMap := [0]
  indexVectorDim := 1
  sliceSizes := ![1]
  wf := gather_S1048576_S16777216x1_S16777216_n_0_n_n_0_1_1_wf
def scatter_S1048576_S16777216x1_S16777216_n_0_0_1 : ScatterDims S1048576 S16777216x1 S16777216 where
  updateWindowDims := []
  insertedWindowDims := [0]
  scatterDimsToOperandDims := [0]
  indexVectorDim := 1
  wf := scatter_S1048576_S16777216x1_S16777216_n_0_0_1_wf
def scatter_S64_S1048576x1_S1048576_n_0_0_1 : ScatterDims S64 S1048576x1 S1048576 where
  updateWindowDims := []
  insertedWindowDims := [0]
  scatterDimsToOperandDims := [0]
  indexVectorDim := 1
  wf := scatter_S64_S1048576x1_S1048576_n_0_0_1_wf
def gather_S64_S1048576x1_S1048576_n_0_n_n_0_1_1 : GatherDims S64 S1048576x1 S1048576 where
  offsetDims := []
  collapsedSliceDims := [0]
  operandBatchingDims := []
  startIndicesBatchingDims := []
  startIndexMap := [0]
  indexVectorDim := 1
  sliceSizes := ![1]
  wf := gather_S64_S1048576x1_S1048576_n_0_n_n_0_1_1_wf

abbrev win0_0 : Pipeline.Window sig grid0 :=
  Pipeline.Window.ofSpec (Memref.whole main_v11) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576 : Shape := ⟨1, ![1048576]⟩
abbrev S16777216 : Shape := ⟨1, ![16777216]⟩
abbrev S2x16777216 : Shape := ⟨2, ![2, 16777216]⟩
abbrev S1x16777216 : Shape := ⟨2, ![1, 16777216]⟩
abbrev S_ : Shape := ⟨0, ![]⟩
abbrev S16777216x1 : Shape := ⟨2, ![16777216, 1]⟩
abbrev S64 : Shape := ⟨1, ![64]⟩
abbrev S1048576x1 : Shape := ⟨2, ![1048576, 1]⟩

abbrev nBuf : Space → Nat
  | .hbm => 69
  | .vmem => 0
  | .smem => 0
  | _ => 0

abbrev bufTy : (tb : Table) → Fin (tcTables nBuf tb) → BufTy
  | .hbm, ⟨0, _⟩ => ⟨S1048576, .f32⟩
  | .hbm, ⟨1, _⟩ => ⟨S1048576, .f32⟩
  | .hbm, ⟨2, _⟩ => ⟨S16777216, .f32⟩
  | .hbm, ⟨3, _⟩ => ⟨S16777216, .f32⟩
  | .hbm, ⟨4, _⟩ => ⟨S16777216, .f32⟩
  | .hbm, ⟨5, _⟩ => ⟨S2x16777216, .i32⟩
  | .hbm, ⟨6, _⟩ => ⟨S1048576, .i32⟩
  | .hbm, ⟨7, _⟩ => ⟨S1x16777216, .i32⟩
  | .hbm, ⟨8, _⟩ => ⟨S16777216, .i32⟩
  | .hbm, ⟨9, _⟩ => ⟨S1x16777216, .i32⟩
  | .hbm, ⟨10, _⟩ => ⟨S16777216, .i32⟩
  | .hbm, ⟨11, _⟩ => ⟨S16777216, .f32⟩
  | .hbm, ⟨12, _⟩ => ⟨S_, .i32⟩
  | .hbm, ⟨13, _⟩ => ⟨S16777216, .i32⟩
  | .hbm, ⟨14, _⟩ => ⟨S16777216, .i1⟩
  | .hbm, ⟨15, _⟩ => ⟨S_, .i32⟩
  | .hbm, ⟨16, _⟩ => ⟨S16777216, .i32⟩
  | .hbm, ⟨17, _⟩ => ⟨S16777216, .i32⟩
  | .hbm, ⟨18, _⟩ => ⟨S16777216, .i32⟩
  | .hbm, ⟨19, _⟩ => ⟨S16777216x1, .i32⟩
  | .hbm, ⟨20, _⟩ => ⟨S16777216, .f32⟩
  | .hbm, ⟨21, _⟩ => ⟨S16777216, .f32⟩
  | .hbm, ⟨22, _⟩ => ⟨S_, .f32⟩
  | .hbm, ⟨23, _⟩ => ⟨S1048576, .f32⟩
  | .hbm, ⟨24, _⟩ => ⟨S16777216x1, .i32⟩
  | .hbm, ⟨25, _⟩ => ⟨S1048576, .f32⟩
  | .hbm, ⟨26, _⟩ => ⟨S1048576, .f32⟩
  | .hbm, ⟨27, _⟩ => ⟨S_, .f32⟩
  | .hbm, ⟨28, _⟩ => ⟨S64, .f32⟩
  | .hbm, ⟨29, _⟩ => ⟨S1048576x1, .i32⟩
  | .hbm, ⟨30, _⟩ => ⟨S64, .f32⟩
  | .hbm, ⟨31, _⟩ => ⟨S1048576, .f32⟩
  | .hbm, ⟨32, _⟩ => ⟨S_, .f32⟩
  | .hbm, ⟨33, _⟩ => ⟨S64, .f32⟩
  | .hbm, ⟨34, _⟩ => ⟨S1048576x1, .i32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S_, .i32⟩
  | .hbm, ⟨41, _⟩ => ⟨S1048576, .i32⟩
  | .hbm, ⟨42, _⟩ => ⟨S1048576, .i1⟩
  | .hbm, ⟨43, _⟩ => ⟨S_, .i32⟩
  | .hbm, ⟨44, _⟩ => ⟨S1048576, .i32⟩
  | .hbm, ⟨45, _⟩ => ⟨S1048576, .i32⟩
  | .hbm, ⟨46, _⟩ => ⟨S1048576, .i32⟩
  | .hbm, ⟨47, _⟩ => ⟨S1048576x1, .i32⟩
  | .hbm, ⟨48, _⟩ => ⟨S1048576, .f32⟩
  | .hbm, ⟨49, _⟩ => ⟨S1048576, .f32⟩
  | .hbm, ⟨50, _⟩ => ⟨S1048576, .f32⟩
  | .hbm, ⟨51, _⟩ => ⟨S1048576, .f32⟩
  | .hbm, ⟨52, _⟩ => ⟨S_, .f32⟩
  | .hbm, ⟨53, _⟩ => ⟨S64, .f32⟩
  | .hbm, ⟨54, _⟩ => ⟨S1048576x1, .i32⟩
  | .hbm, ⟨55, _⟩ => ⟨S64, .f32⟩
  | .hbm, ⟨56, _⟩ => ⟨S1048576, .f32⟩
  | .hbm, ⟨57, _⟩ => ⟨S_, .f32⟩
  | .hbm, ⟨58, _⟩ => ⟨S64, .f32⟩
  | .hbm, ⟨59, _⟩ => ⟨S1048576x1, .i32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  slices_S2x16777216_S1x16777216_0_0 : S2x16777216.Slices ![0, 0] S1x16777216
  shapeCasts_S1x16777216_S16777216 : S1x16777216.ShapeCasts S16777216
  slices_S2x16777216_S1x16777216_1_0 : S2x16777216.Slices ![1, 0] S1x16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S1048576 : S_.BroadcastsInDim S1048576 (![] : Fin 0 → Fin S1048576.rank)
  bcast_S_S64 : S_.BroadcastsInDim S64 (![] : Fin 0 → Fin S64.rank)
  bcast_S1048576_S1048576x1_0 : S1048576.BroadcastsInDim S1048576x1 (![0] : Fin 1 → Fin S1048576x1.rank)
  reducesTo_S64_S_d0 : S64.ReducesTo [0] S_
  h_S_ : 0 < S_.numel
  gather_S1048576_S16777216x1_S16777216_n_0_n_n_0_1_1_wf : GatherDims.WF S1048576 S16777216x1 S16777216 [] [0] [] [0] [] 1 ![1]
  scatter_S1048576_S16777216x1_S16777216_n_0_0_1_wf : ScatterDims.WF S1048576 S16777216x1 S16777216 [] [0] [0] 1
  scatter_S64_S1048576x1_S1048576_n_0_0_1_wf : ScatterDims.WF S64 S1048576x1 S1048576 [] [0] [0] 1
  gather_S64_S1048576x1_S1048576_n_0_n_n_0_1_1_wf : GatherDims.WF S64 S1048576x1 S1048576 [] [0] [] [0] [] 1 ![1]

variable [Facts₀]

def gather_S1048576_S16777216x1_S16777216_n_0_n_n_0_1_1 : GatherDims S1048576 S16777216x1 S16777216 where
  offsetDims := []
  collapsedSliceDims := [0]
  operandBatchingDims := []
  startIndicesBatchingDims := []
  startIndexMap := [0]
  indexVectorDim := 1
  sliceSizes := ![1]
  wf := gather_S1048576_S16777216x1_S16777216_n_0_n_n_0_1_1_wf
def scatter_S1048576_S16777216x1_S16777216_n_0_0_1 : ScatterDims S1048576 S16777216x1 S16777216 where
  updateWindowDims := []
  insertedWindowDims := [0]
  scatterDimsToOperandDims := [0]
  indexVectorDim := 1
  wf := scatter_S1048576_S16777216x1_S16777216_n_0_0_1_wf
def scatter_S64_S1048576x1_S1048576_n_0_0_1 : ScatterDims S64 S1048576x1 S1048576 where
  updateWindowDims := []
  insertedWindowDims := [0]
  scatterDimsToOperandDims := [0]
  indexVectorDim := 1
  wf := scatter_S64_S1048576x1_S1048576_n_0_0_1_wf
def gather_S64_S1048576x1_S1048576_n_0_n_n_0_1_1 : GatherDims S64 S1048576x1 S1048576 where
  offsetDims := []
  collapsedSliceDims := [0]
  operandBatchingDims := []
  startIndicesBatchingDims := []
  startIndexMap := [0]
  indexVectorDim := 1
  sliceSizes := ![1]
  wf := gather_S64_S1048576x1_S1048576_n_0_n_n_0_1_1_wf

class Facts : Prop extends Facts₀ where

variable [Facts]
-- ==== Proof.EdgeLoss.lean ====
/-
  The quantity both programs compute, written once.

  From node vectors `d`, `r` (1048576 nodes), a graph id per node, a row node per edge and a value per edge
  (16777216 edges):
    Ad      = the edge values summed into their row nodes,
    alpha_g = (Σ_{v in g} r_v d_v) / (Σ_{v in g} d_v Ad_v + ε)        for each of the 64 graphs g,
    err_v   = alpha_{g(v)} · Ad_v − r_v,
    loss    = (Σ_g (Σ_{v in g} err_v²) / (Σ_{v in g} r_v² + ε)) / 64,
  with ε the float literal nearest 1e-6, every sum a scatter-add into zeros, the graph id wrapped the way an index
  is (a negative id counts from the end).  The edge value is  a_e · mask_e · d_{col(e)},  the column wrapped the same
  way.  The two programs differ only in how the edge values are produced; from there on they are this one function.
-/
import proofs.«120996_j82978768159396_1_alg».proof.ReferenceIdeal
import Idealize.ShloMosaic.Lib.Pipeline.Value

noncomputable section

namespace Cert.EdgeLoss

open Idealize.ShloMosaic Cert.ReferenceIdeal Cert.ReferenceIdeal.Facts₀

variable {F : FTy → Type} [FloatOps F] [Cert.ReferenceIdeal.Facts]

/-- The row node of each edge: row 0 of the 2 × E edge index, as a vector of length E. -/
def rowIds (e : IVec S2x16777216 32) : IVec S16777216 32 :=
  shapeCast _ (extractStridedSlice S1x16777216 ![0, 0] e slices_S2x16777216_S1x16777216_0_0) shapeCasts_S1x16777216_S16777216

/-- The column node of each edge: row 1 of the edge index. -/
def colIds (e : IVec S2x16777216 32) : IVec S16777216 32 :=
  shapeCast _ (extractStridedSlice S1x16777216 ![1, 0] e slices_S2x16777216_S1x16777216_1_0) shapeCasts_S1x16777216_S16777216

/-- The node vector at each edge's column node, `d_{col(e)}`: a gather at the (wrapped) column ids. -/
def gathered (d : FVec F S1048576 .f32) (e : IVec S2x16777216 32) : FVec F S16777216 .f32 :=
  Host.gather gather_S1048576_S16777216x1_S16777216_n_0_n_n_0_1_1 d
    (broadcastInDim S16777216x1 ![0] bcast_S16777216_S16777216x1_0
      (select (cmpi .slt (colIds e) (broadcastInDim S16777216 ![] bcast_S_S16777216 (constantI S_ 32 0#32)))
        (addi (colIds e) (broadcastInDim S16777216 ![] bcast_S_S16777216 (constantI S_ 32 1048576#32))) (colIds e)))

/-- The value of each edge, `(a_e · mask_e) · d_{col(e)}`. -/
def edgeTerm (d : FVec F S1048576 .f32) (a mask : FVec F S16777216 .f32) (e : IVec S2x16777216 32) : FVec F S16777216 .f32 :=
  mulf (mulf a mask) (gathered d e)

/-- Edge values summed into their row nodes. -/
def rowSum (rows : IVec S16777216 32) (u : FVec F S16777216 .f32) : FVec F S1048576 .f32 :=
  Host.scatterAdd scatter_S1048576_S16777216x1_S16777216_n_0_0_1 (broadcastInDim S1048576 ![] bcast_S_S1048576 (constant S_ .f32 0x00000000#32))
    (broadcastInDim S16777216x1 ![0] bcast_S16777216_S16777216x1_0 rows) u

/-- A node vector summed over each graph. -/
def graphSum (gid : IVec S1048576 32) (v : FVec F S1048576 .f32) : FVec F S64 .f32 :=
  Host.scatterAdd scatter_S64_S1048576x1_S1048576_n_0_0_1 (broadcastInDim S64 ![] bcast_S_S64 (constant S_ .f32 0x00000000#32))
    (broadcastInDim S1048576x1 ![0] bcast_S1048576_S1048576x1_0 gid) v

/-- The step length per graph, `(r · d) / (d · Ad + ε)`. -/
def stepLen (d r : FVec F S1048576 .f32) (gid : IVec S1048576 32) (Ad : FVec F S1048576 .f32) : FVec F S64 .f32 :=
  Host.divf (graphSum gid (mulf r d)) (addf (graphSum gid (mulf d Ad)) (broadcastInDim S64 ![] bcast_S_S64 (constant S_ .f32 0x358637BD#32)))

/-- The residual after the step, per node: the node's graph's step length times `Ad`, less `r`. -/
def stepErr (d r : FVec F S1048576 .f32) (gid : IVec S1048576 32) (Ad : FVec F S1048576 .f32) : FVec F S1048576 .f32 :=
  subf (mulf (Host.gather gather_S64_S1048576x1_S1048576_n_0_n_n_0_1_1 (stepLen d r gid Ad)
    (broadcastInDim S1048576x1 ![0] bcast_S1048576_S1048576x1_0
      (select (cmpi .slt gid (broadcastInDim S1048576 ![] bcast_S_S1048576 (constantI S_ 32 0#32)))
        (addi gid (broadcastInDim S1048576 ![] bcast_S_S1048576 (constantI S_ 32 64#32))) gid))) Ad) r

/-- The mean over the 64 graphs of the squared relative residual, from the edge values `u`. -/
def loss (d r : FVec F S1048576 .f32) (gid : IVec S1048576 32) (rows : IVec S16777216 32) (u : FVec F S16777216 .f32) : FVec F S_ .f32 :=
  Host.divf (Host.reduceAdd
    (Host.divf (graphSum gid (mulf (stepErr d r gid (rowSum rows u)) (stepErr d r gid (rowSum rows u))))
      (addf (graphSum gid (mulf r r)) (broadcastInDim S64 ![] bcast_S_S64 (constant S_ .f32 0x358637BD#32))))
    (constant S_ .f32 0x00000000#32) reducesTo_S64_S_d0 h_S_) (constant S_ .f32 0x42800000#32)

/-- Reshaping commutes with a pointwise product. -/
theorem shapeCast_mulf {s t : Shape} {φ : FTy} (x y : FVec F t φ) (h : t.ShapeCasts s) :
    shapeCast s (mulf x y) h = mulf (shapeCast s x h) (shapeCast s y h) := rfl

/-- A product of three vectors taken in another shape and reshaped back is the product: each reshape there and back is
    the identity. -/
theorem reshaped_prod {s t : Shape} {φ : FTy} (a b g : FVec F s φ) (h : s.ShapeCasts t) (h' : t.ShapeCasts s) :
    shapeCast s (mulf (mulf (shapeCast t a h) (shapeCast t b h)) (shapeCast t g h)) h' = mulf (mulf a b) g := by
  rw [shapeCast_mulf, shapeCast_mulf, shapeCast_shapeCast, shapeCast_shapeCast, shapeCast_shapeCast]

end Cert.EdgeLoss

end
-- ==== Proof.RefLoss.lean ====
/-
  The reference's result is the loss of its own edge values: its composed term, read as written, is
  `loss d r gid rows (a · mask · d[cols])`.
-/
import proofs.«120996_j82978768159396_1_alg».proof.Proof.Gen.ReferenceIdeal.Run
import proofs.«120996_j82978768159396_1_alg».proof.Proof.EdgeLoss

noncomputable section

namespace Cert.ReferenceIdeal.RefLoss

open Idealize.ShloMosaic Idealize.ShloMosaic.TcCoe Idealize.SL.Sem Cert.ReferenceIdeal Cert.ReferenceIdeal.Gen Cert.EdgeLoss

variable {F : FTy → Type} [FloatOps F]

set_option maxRecDepth 8192 in
/-- The reference's result term is the loss of the edge values `a · mask · d[cols]`, scattered by the row ids. -/
theorem result_eq (m : (ℓ : Loc nD τ sig) → Buf (Elt F) ℓ) (c : Dev nD) :
    Cert.ReferenceIdeal.Value.res_main_v48 m c
      = loss (m ((c.tc : Thread nD τ).loc main_arg0)) (m ((c.tc : Thread nD τ).loc main_arg1)) (m ((c.tc : Thread nD τ).loc main_arg6))
          (rowIds (m ((c.tc : Thread nD τ).loc main_arg5)))
          (edgeTerm (m ((c.tc : Thread nD τ).loc main_arg0)) (m ((c.tc : Thread nD τ).loc main_arg2)) (m ((c.tc : Thread nD τ).loc main_arg3))
            (m ((c.tc : Thread nD τ).loc main_arg5))) := by
  unfold Cert.ReferenceIdeal.Value.res_main_v48 loss stepErr stepLen graphSum rowSum edgeTerm gathered rowIds colIds
  rfl

end Cert.ReferenceIdeal.RefLoss

end
-- ==== Proof.EdgeProduct.lean ====
/-
  What the region leaves in its output array.

  The three operands are the edge arrays `a`, `mask` and the gathered `d[cols]`, each reshaped from length
  16777216 to 131072 × 128; the grid's sixteen points each take rows `8192 t … 8192 t + 8191` of all three and write
  the pointwise product `(a · mask) · g` of those rows to the same rows of the output.  The sixteen row bands tile the
  131072 rows, so the output array ends as the pointwise product of the three whole operand arrays.
-/
import proofs.«120996_j82978768159396_1_alg».proof.Proof.Gen.KernelIdeal.Frame
import Idealize.ShloMosaic.Lib.Pipeline.Value
import Idealize.ShloMosaic.Lib.StableHlo.Run

set_option maxRecDepth 16384

noncomputable section

namespace Cert.KernelIdeal.EdgeProduct

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The operand arrays as the region finds them -/

/-- Operand 0 is `a` reshaped to 131072 × 128. -/
theorem entry_a (c : Dev nD) : (V m c main_v11 : S131072x128.Idx → Elt F .f32)
    = shapeCast S131072x128 (m ((c : Thread nD τ).loc main_arg2)) shapeCasts_S16777216_S131072x128 := by
  show StableHlo.after hostOps0 (fun b => m (c, b)) (Proc.devRef .tc main_v11) = _
  after_results
  rfl

/-- Operand 1 is `mask` reshaped to 131072 × 128. -/
theorem entry_mask (c : Dev nD) : (V m c main_v12 : S131072x128.Idx → Elt F .f32)
    = shapeCast S131072x128 (m ((c : Thread nD τ).loc main_arg3)) shapeCasts_S16777216_S131072x128 := by
  show StableHlo.after hostOps0 (fun b => m (c, b)) (Proc.devRef .tc main_v12) = _
  after_results
  rfl

/-! ## One point's block -/

theorem offset_zero : (![0, 0] : Fin 2 → Nat) = fun _ => 0 := funext fun a => by fin_cases a <;> rfl

/-- The body's stored value is the product `(x0 · x1) · x2` of its three loaded blocks (the casts between equal shapes
    are the identity). -/
theorem body_product (x0 x1 x2 : Vec F S8192x128 .f32) : k0_pay1 x0 x1 x2 = mulf (mulf x0 x1) x2 := by
  unfold k0_pay1
  simp only [shapeCast_self]

/-- All four windows take the same row band at a point, band `t` at point `t`, and all 128 columns. -/
theorem band_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 15 ∧ win0_3.index t (1 : Fin 2) = 0 :=
  (by decide +kernel : ∀ t : Fin grid0.N, _)

/-- Every row band is some point's. -/
theorem band_onto : ∀ q : Fin 16, ∃ t : Fin cfg0.N, win0_3.index t = ![q.val, 0] :=
  (by decide +kernel : ∀ q : Fin 16, ∃ t : Fin grid0.N, win0_3.index t = ![q.val, 0])

/-- What point `t` writes back is band `t` of the product of the three operand arrays. -/
theorem flushed_eq (c : Dev nD) (t : Fin cfg0.N) :
    (dats m 0 c).flushed 3 t
      = ((cfg0.win 3).blk t).view.read (Elt F) (mulf (mulf (V m c main_v11) (V m c main_v12)) (V m c main_v13)) := by
  show (cfg0.win 3).cut (grid0.coords t) ((dats m 0 c).after 3 t) = _
  rw [after0_3]
  unfold out0_3
  rw [View.canon_unit_zero offset_zero]
  simp only [View.ld_unit_zero (S := S8192x128) offset_zero]
  rw [body_product]
  obtain ⟨e0, e1, e2, e3, e4, e5, e6, e7⟩ := band_facts t
  funext j
  show FloatOps.mulf (FloatOps.mulf (V m c main_v11 (((cfg0.win 0).blk t).view.emb j)) (V m c main_v12 (((cfg0.win 1).blk t).view.emb j)))
        (V m c main_v13 (((cfg0.win 2).blk t).view.emb j))
      = FloatOps.mulf (FloatOps.mulf (V m c main_v11 (((cfg0.win 3).blk t).view.emb j)) (V m c main_v12 (((cfg0.win 3).blk t).view.emb j)))
        (V m c main_v13 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 8192 + 1 * (j 0).val = win0_3.index t (0 : Fin 2) * 8192 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 8192 + 1 * (j 0).val = win0_3.index t (0 : Fin 2) * 8192 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 8192 + 1 * (j 0).val = win0_3.index t (0 : Fin 2) * 8192 + 1 * (j 0).val; omega
    | ⟨1, _⟩ => show win0_2.index t (1 : Fin 2) * 128 + 1 * (j 1).val = win0_3.index t (1 : Fin 2) * 128 + 1 * (j 1).val; omega
  rw [h0, h1, h2]

/-! ## The bands tile the array -/

/-- An index of the output array is in point `t`'s block iff each coordinate is in the block's range on its axis. -/
theorem mem_band (t : Fin cfg0.N) (i : S131072x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v14).slice (win0_3.rect t)).set ↔ _
  rw [View.set_slice_whole, Rect.mem_set_unit]
  exact Iff.rfl

/-- Row `r` lies in band `r / 8192`: every index of the output array is written back by some point. -/
theorem bands_cover (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  obtain ⟨t, ht⟩ := band_onto ⟨(i 0).val / 8192, by omega⟩
  have q0 : win0_3.index t (0 : Fin 2) = (i 0).val / 8192 := congrFun ht 0
  have q1 : win0_3.index t (1 : Fin 2) = 0 := congrFun ht 1
  refine ⟨t, flush0_3 t, ?_⟩
  rw [mem_band]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 128 ≤ (i 1).val ∧ (i 1).val < win0_3.index t (1 : Fin 2) * 128 + 128; omega

/-- The output array after the region: the pointwise product of the three operand arrays. -/
theorem product_array (c : Dev nD) :
    (dats m 0 c).arrAt 3 cfg0.N = mulf (mulf (V m c main_v11) (V m c main_v12)) (V m c main_v13) :=
  (dats m 0 c).arrAt_eq_of_cover 3 _ (fun t _ => flushed_eq m c t) bands_cover

end Cert.KernelIdeal.EdgeProduct

end
-- ==== Proof.KernelLoss.lean ====
/-
  The kernel program's result is the loss of the same edge values.

  After the region the output array is the product of the three reshaped operands (EdgeProduct); the first operation
  after the region reshapes it back to length 16777216, and a product of vectors reshaped, multiplied and reshaped back is
  the product of the vectors, so the edge values are `(a · mask) · d[cols]`.  Every later operation is the loss
  function's own, read off the node vectors, the graph ids and the row ids, none of which the region touches.
-/
import proofs.«120996_j82978768159396_1_alg».proof.Proof.EdgeProduct
import proofs.«120996_j82978768159396_1_alg».proof.Proof.EdgeLoss
import proofs.«120996_j82978768159396_1_alg».proof.Proof.Gen.ReferenceIdeal

set_option maxRecDepth 16384

noncomputable section

namespace Cert.KernelIdeal.KernelLoss

open Cert.KernelIdeal Cert.KernelIdeal.Gen Idealize.ShloMosaic Idealize.ShloMosaic.TcCoe Idealize.SL.Sem
open Idealize.ShloMosaic.StableHlo Cert.EdgeLoss Cert.KernelIdeal.EdgeProduct
open Idealize.ShloMosaic.Pipeline (Dat)

variable {F : FTy → Type} [FloatOps F]
variable (m : (ℓ : Loc nD τ sig) → Buf (Elt F) ℓ) (ρ : Dev nD → PrngReg)

/-! ## What the operations before the region leave -/

/-- The row ids, as the region finds them: row 0 of the edge index. -/
theorem entry_rows (c : Dev nD) : (V m c main_v1 : S16777216.Idx → BitVec 32) = rowIds (m ((c : Thread nD τ).loc main_arg5)) := by
  show StableHlo.after hostOps0 (fun b => m (c, b)) (Proc.devRef .tc main_v1) = _
  after_results
  rfl

/-- Operand 2 is `d` gathered at the column ids, reshaped to 131072 × 128. -/
theorem entry_g (c : Dev nD) : (V m c main_v13 : S131072x128.Idx → Elt F .f32)
    = shapeCast S131072x128 (gathered (m ((c : Thread nD τ).loc main_arg0)) (m ((c : Thread nD τ).loc main_arg5))) shapeCasts_S16777216_S131072x128 := by
  show StableHlo.after hostOps0 (fun b => m (c, b)) (Proc.devRef .tc main_v13) = _
  after_results
  rfl

/-! ## The result -/

set_option maxHeartbeats 8000000 in
/-- The program's result buffer after the operations that follow the region: the loss of the edge values
    `(a · mask) · d[cols]`, scattered by the row ids. -/
theorem result_eq (c : Dev nD) :
    Pipeline.afterTail₀ cfgs (dats m) 0 (V0 m) [hostOps1] c main_v51
      = loss (m ((c : Thread nD τ).loc main_arg0)) (m ((c : Thread nD τ).loc main_arg1)) (m ((c : Thread nD τ).loc main_arg6))
          (rowIds (m ((c : Thread nD τ).loc main_arg5)))
          (edgeTerm (m ((c : Thread nD τ).loc main_arg0)) (m ((c : Thread nD τ).loc main_arg2)) (m ((c : Thread nD τ).loc main_arg3))
            (m ((c : Thread nD τ).loc main_arg5))) := by
  unfold Pipeline.afterTail₀
  show StableHlo.after hostOps1 _ (Proc.devRef .tc main_v51) = _
  generalize hW : Pipeline.withArrays _ c (V0 m c) _ = W
  after_results_simp
  -- the operations after the region, as written, are the loss function of five buffers the region leaves
  show loss (W (Proc.devRef .tc main_arg0)) (W (Proc.devRef .tc main_arg1)) (W (Proc.devRef .tc main_arg6)) (W (Proc.devRef .tc main_v1))
      (shapeCast S16777216 (W (Proc.devRef .tc main_v14)) shapeCasts_S131072x128_S16777216) = _
  -- four of them the region does not stage: they are as the operations before it left them
  have e0 : W (Proc.devRef .tc main_arg0) = m ((c : Thread nD τ).loc main_arg0) := by
    rw [← hW]
    exact (Pipeline.withArrays_of_ne _ c (V0 m c) _ main_arg0 (by exact (by decide : ∀ w, Pipeline.arrRef spec0 w ≠ main_arg0))).trans (V_main_arg0 m c)
  have e1 : W (Proc.devRef .tc main_arg1) = m ((c : Thread nD τ).loc main_arg1) := by
    rw [← hW]
    exact (Pipeline.withArrays_of_ne _ c (V0 m c) _ main_arg1 (by exact (by decide : ∀ w, Pipeline.arrRef spec0 w ≠ main_arg1))).trans (V_main_arg1 m c)
  have e6 : W (Proc.devRef .tc main_arg6) = m ((c : Thread nD τ).loc main_arg6) := by
    rw [← hW]
    exact (Pipeline.withArrays_of_ne _ c (V0 m c) _ main_arg6 (by exact (by decide : ∀ w, Pipeline.arrRef spec0 w ≠ main_arg6))).trans (V_main_arg6 m c)
  have er : W (Proc.devRef .tc main_v1) = rowIds (m ((c : Thread nD τ).loc main_arg5)) := by
    rw [← hW]
    exact (Pipeline.withArrays_of_ne _ c (V0 m c) _ main_v1 (by exact (by decide : ∀ w, Pipeline.arrRef spec0 w ≠ main_v1))).trans (entry_rows m c)
  -- the fifth is the region's output array
  have eo : W (Proc.devRef .tc main_v14) = mulf (mulf (V m c main_v11) (V m c main_v12)) (V m c main_v13) := by
    rw [← hW]
    exact (Pipeline.withArrays_arr spec0 launch0.win.arr_inj c _ _ 3).trans (product_array m c)
  rw [e0, e1, e6, er, eo, entry_a, entry_mask, entry_g]
  exact congrArg (loss _ _ _ _) (reshaped_prod _ _ _ shapeCasts_S16777216_S131072x128 shapeCasts_S131072x128_S16777216)

/-! ## The run -/

/-- Every weakly fair execution of the kernel program terminates with its result at the loss of the edge values and its
    arguments unchanged. -/
theorem run : θ_run defs (onTc (τ := τ) (main (F := F))) ⟨m, fun _ => 0, ρ⟩ fun r => ∀ c : Dev nD,
      r.2.mem ((c.tc : Thread nD τ).loc main_v51)
        = loss (m ((c.tc : Thread nD τ).loc main_arg0)) (m ((c.tc : Thread nD τ).loc main_arg1)) (m ((c.tc : Thread nD τ).loc main_arg6))
            (rowIds (m ((c.tc : Thread nD τ).loc main_arg5)))
            (edgeTerm (m ((c.tc : Thread nD τ).loc main_arg0)) (m ((c.tc : Thread nD τ).loc main_arg2)) (m ((c.tc : Thread nD τ).loc main_arg3))
              (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v51 (Pipeline.mem_restRefs_of main_v51 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KernelLoss

end
-- ==== Proof.lean ====
/- The kernel program and its reference compute one loss over a batch of 64 graphs: edge values
   `(a · mask) · d[cols]` are summed into their row nodes (`Ad`), each graph gets the step length
   `(r · d) / (d · Ad + ε)`, and the result is the mean over the graphs of `‖step · Ad − r‖² / (‖r‖² + ε)`.
   The two programs differ only in how the edge values are produced: the reference multiplies the three length-16777216
   vectors directly; the kernel program reshapes them to 131072 × 128, multiplies them in sixteen row bands of 8192 rows,
   and reshapes the product back.  Reshaping commutes with a pointwise product and the bands tile the rows, so the edge
   values agree entry by entry (at any float instance, with the same association of the product), and every later
   operation is the same function of them: Proof/EdgeLoss.lean states that function, Proof/RefLoss.lean reads the
   reference's result as it, Proof/EdgeProduct.lean and Proof/KernelLoss.lean the kernel program's.  No algebraic law is
   used, so the finiteness of the inputs is never opened.  The idealization rewrote nothing, so it is preserved
   trivially; the frames are the generated ones, the reference's its run with the result dropped. -/
import proofs.«120996_j82978768159396_1_alg».proof.Defs
import proofs.«120996_j82978768159396_1_alg».proof.Proof.Gen.Kernel
import proofs.«120996_j82978768159396_1_alg».proof.Proof.Gen.Kernel.Skeleton
import proofs.«120996_j82978768159396_1_alg».proof.Proof.Gen.Kernel.Launch
import proofs.«120996_j82978768159396_1_alg».proof.Proof.Gen.Kernel.Points
import proofs.«120996_j82978768159396_1_alg».proof.Proof.Gen.Kernel.Frame
import proofs.«120996_j82978768159396_1_alg».proof.Proof.Gen.KernelIdeal
import proofs.«120996_j82978768159396_1_alg».proof.Proof.Gen.KernelIdeal.Skeleton
import proofs.«120996_j82978768159396_1_alg».proof.Proof.Gen.KernelIdeal.Launch
import proofs.«120996_j82978768159396_1_alg».proof.Proof.Gen.KernelIdeal.Points
import proofs.«120996_j82978768159396_1_alg».proof.Proof.Gen.KernelIdeal.Frame
import proofs.«120996_j82978768159396_1_alg».proof.Proof.Gen.ReferenceIdeal
import proofs.«120996_j82978768159396_1_alg».proof.Proof.Gen.ReferenceIdeal.Run
import proofs.«120996_j82978768159396_1_alg».proof.Proof.Gen.Pre_finite_inputs
import proofs.«120996_j82978768159396_1_alg».proof.Proof.RefLoss
import proofs.«120996_j82978768159396_1_alg».proof.Proof.KernelLoss
import Idealize.ShloMosaic.Adequacy
import Idealize.ShloMosaic.Init

noncomputable section

namespace Cert.Proof

open Idealize.ShloMosaic Idealize.SL.Sem

/-- The word-level kernel program terminates, faults nowhere and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the loss of the edge values `(a · mask) · d[cols]`. -/
theorem algebraic : Cert.algebraic_KernelIdeal_ReferenceIdeal := by
  intro m ρ m' ρ' _ hagree
  refine ⟨_, Cert.KernelIdeal.KernelLoss.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefLoss.result_eq, (hagree c).1, (hagree c).2.1, (hagree c).2.2.1, (hagree c).2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
